-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S16x256 : Shape := ⟨2, ![16, 256]⟩
abbrev S256x256 : Shape := ⟨2, ![256, 256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S32x256x64x64 .f32) (main_arg1 : FVec F S16x256 .f32) (main_arg2 : FVec F S256x256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S32x256x64x64 : Shape := ⟨4, ![32, 256, 64, 64]⟩
abbrev S16x256 : Shape := ⟨2, ![16, 256]⟩
abbrev S256x256 : Shape := ⟨2, ![256, 256]⟩
abbrev S32x256 : Shape := ⟨2, ![32, 256]⟩
abbrev S16x256x8x64 : Shape := ⟨4, ![16, 256, 8, 64]⟩
abbrev S16x256x8 : Shape := ⟨3, ![16, 256, 8]⟩
abbrev S32x16 : Shape := ⟨2, ![32, 16]⟩
abbrev S_ : Shape := ⟨0, ![]⟩
abbrev S32x16x1 : Shape := ⟨3, ![32, 16, 1]⟩
abbrev S32x1x16 : Shape := ⟨3, ![32, 1, 16]⟩
abbrev S32x16x16 : Shape := ⟨3, ![32, 16, 16]⟩
abbrev S8x128x16x64 : Shape := ⟨4, ![8, 128, 16, 64]⟩
abbrev S8x128 : Shape := ⟨2, ![8, 128]⟩
abbrev S8x128x1x1 : Shape := ⟨4, ![8, 128, 1, 1]⟩

abbrev nBuf : Space → Nat
  | .hbm => 24
  | .vmem => 10
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S256x256, .f32⟩
  | .hbm, ⟨3, _⟩ => ⟨S32x256, .f32⟩
  | .hbm, ⟨4, _⟩ => ⟨S32x16, .f32⟩
  | .hbm, ⟨5, _⟩ => ⟨S_, .f32⟩
  | .hbm, ⟨6, _⟩ => ⟨S32x16, .f32⟩
  | .hbm, ⟨7, _⟩ => ⟨S32x16, .f32⟩
  | .hbm, ⟨8, _⟩ => ⟨S32x16x1, .f32⟩
  | .hbm, ⟨9, _⟩ => ⟨S32x1x16, .f32⟩
  | .hbm, ⟨10, _⟩ => ⟨S32x16x16, .f32⟩
  | .hbm, ⟨11, _⟩ => ⟨S32x16x16, .f32⟩
  | .hbm, ⟨12, _⟩ => ⟨S32x16x16, .f32⟩
  | .hbm, ⟨13, _⟩ => ⟨S32x256, .f32⟩
  | .hbm, ⟨14, _⟩ => ⟨S32x256, .f32⟩
  | .hbm, ⟨15, _⟩ => ⟨S32x256, .f32⟩
  | .hbm, ⟨16, _⟩ => ⟨S32x256, .f32⟩
  | .hbm, ⟨17, _⟩ => ⟨S_, .f32⟩
  | .hbm, ⟨18, _⟩ => ⟨S32x256, .f32⟩
  | .hbm, ⟨19, _⟩ => ⟨S32x256, .f32⟩
  | .hbm, ⟨20, _⟩ => ⟨S_, .f32⟩
  | .hbm, ⟨21, _⟩ => ⟨S32x256, .f32⟩
  | .hbm, ⟨22, _⟩ => ⟨S32x256, .f32⟩
  | .hbm, ⟨23, _⟩ => ⟨S32x256x64x64, .f32⟩
  | .local _ .vmem, ⟨0, _⟩ => ⟨S16x256x8x64, .f32⟩
  | .local _ .vmem, ⟨1, _⟩ => ⟨S16x256x8x64, .f32⟩
  | .local _ .vmem, ⟨2, _⟩ => ⟨S16x256, .f32⟩
  | .local _ .vmem, ⟨3, _⟩ => ⟨S16x256, .f32⟩
  | .local _ .vmem, ⟨4, _⟩ => ⟨S8x128x16x64, .f32⟩
  | .local _ .vmem, ⟨5, _⟩ => ⟨S8x128x16x64, .f32⟩
  | .local _ .vmem, ⟨6, _⟩ => ⟨S8x128, .f32⟩
  | .local _ .vmem, ⟨7, _⟩ => ⟨S8x128, .f32⟩
  | .local _ .vmem, ⟨8, _⟩ => ⟨S8x128x16x64, .f32⟩
  | .local _ .vmem, ⟨9, _⟩ => ⟨S8x128x16x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨3, ![4, 2, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S8x128x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S8x128x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  inb_S16x256_S16x256_0_0 : ∀ a, (![0, 0] : Fin 2 → Nat) a + S16x256.size a ≤ S16x256.size a
  h_S16x256 : 0 < S16x256.numel
  inb_S16x256x8x64_S16x256x8x64_0_0_0_0 : ∀ a, (![0, 0, 0, 0] : Fin 4 → Nat) a + S16x256x8x64.size a ≤ S16x256x8x64.size a
  h_S16x256x8x64 : 0 < S16x256x8x64.numel
  reduces_S16x256x8x64_S16x256x8 : S16x256x8x64.Reduces [3] S16x256x8
  reduces_S16x256x8_S16x256 : S16x256x8.Reduces [2] S16x256
  shapeCasts_S16x256_S16x256 : S16x256.ShapeCasts S16x256
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16_S32x1x16_0_2 : S32x16.BroadcastsInDim S32x1x16 (![0, 2] : Fin 2 → Fin S32x1x16.rank)
  bcast_S32x16x1_S32x16x16_0_1_2 : S32x16x1.BroadcastsInDim S32x16x16 (![0, 1, 2] : Fin 3 → Fin S32x16x16.rank)
  bcast_S32x1x16_S32x16x16_0_1_2 : S32x1x16.BroadcastsInDim S32x16x16 (![0, 1, 2] : Fin 3 → Fin S32x16x16.rank)
  shapeCasts_S32x16x16_S32x256 : S32x16x16.ShapeCasts S32x256
  bcast_S_S32x256 : S_.BroadcastsInDim S32x256 (![] : Fin 0 → Fin S32x256.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1x1 : S8x128.ShapeCasts S8x128x1x1
  shapeCasts_S8x128x1x1_S8x128x1x1 : S8x128x1x1.ShapeCasts S8x128x1x1
  broadcasts_S8x128x1x1_S8x128x16x64 : S8x128x1x1.Broadcasts S8x128x16x64
  inb_S8x128x16x64_S8x128x16x64_0_0_0_0 : ∀ a, (![0, 0, 0, 0] : Fin 4 → Nat) a + S8x128x16x64.size a ≤ S8x128x16x64.size a
  h_S8x128x16x64 : 0 < S8x128x16x64.numel
  dot_S32x256_S16x256_S32x16_1_1_0_0_n_n_wf : DotDims.WF S32x256 S16x256 S32x16 [1] [1] [0] [0] [] []
  dot_S32x256_S256x256_S32x256_1_1_0_0_n_n_wf : DotDims.WF S32x256 S256x256 S32x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x8x64.size a ≤ S32x256x64x64.size a
  hwx0_0 : ∀ i : grid0.Coords, EltTy.bits .f32 = 32 ∨ (Rect.block (s := S32x256x64x64) S16x256x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S32x256.size a
  hwx0_1 : ∀ i : grid0.Coords, EltTy.bits .f32 = 32 ∨ (Rect.block (s := S32x256) S16x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x16x64.size a ≤ S32x256x64x64.size a
  hwx1_0 : ∀ i : grid1.Coords, EltTy.bits .f32 = 32 ∨ (Rect.block (s := S32x256x64x64) S8x128x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S32x256.size a
  hwx1_1 : ∀ i : grid1.Coords, EltTy.bits .f32 = 32 ∨ (Rect.block (s := S32x256) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x16x64.size a ≤ S32x256x64x64.size a
  hwx1_2 : ∀ i : grid1.Coords, EltTy.bits .f32 = 32 ∨ (Rect.block (s := S32x256x64x64) S8x128x16x64.size (cc1_transform_2 i) (hinb1_2 i)).WholeWords (EltTy.packing .f32)

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x256_S256x256_S32x256_1_1_0_0_n_n : DotDims S32x256 S256x256 S32x256 where
  lhsContracting := [1]
  rhsContracting := [1]
  lhsNonContracting := [0]
  rhsNonContracting := [0]
  lhsBatch := []
  rhsBatch := []
  wf := dot_S32x256_S256x256_S32x256_1_1_0_0_n_n_wf

abbrev win0_0 : Pipeline.Window sig grid0 :=
  Pipeline.Window.ofSpec (Memref.whole main_arg0) S16x256x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S8x128x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S8x128x16x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S16x256 : Shape := ⟨2, ![16, 256]⟩
abbrev S256x256 : Shape := ⟨2, ![256, 256]⟩
abbrev S_ : Shape := ⟨0, ![]⟩
abbrev S32x256 : Shape := ⟨2, ![32, 256]⟩
abbrev S32x16 : Shape := ⟨2, ![32, 16]⟩
abbrev S32x16x1 : Shape := ⟨3, ![32, 16, 1]⟩
abbrev S32x1x16 : Shape := ⟨3, ![32, 1, 16]⟩
abbrev S32x16x16 : Shape := ⟨3, ![32, 16, 16]⟩
abbrev S32x256x1x1 : Shape := ⟨4, ![32, 256, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S256x256, .f32⟩
  | .hbm, ⟨3, _⟩ => ⟨S_, .f32⟩
  | .hbm, ⟨4, _⟩ => ⟨S32x256, .f32⟩
  | .hbm, ⟨5, _⟩ => ⟨S_, .f32⟩
  | .hbm, ⟨6, _⟩ => ⟨S32x256, .f32⟩
  | .hbm, ⟨7, _⟩ => ⟨S32x256, .f32⟩
  | .hbm, ⟨8, _⟩ => ⟨S32x16, .f32⟩
  | .hbm, ⟨9, _⟩ => ⟨S_, .f32⟩
  | .hbm, ⟨10, _⟩ => ⟨S32x16, .f32⟩
  | .hbm, ⟨11, _⟩ => ⟨S32x16, .f32⟩
  | .hbm, ⟨12, _⟩ => ⟨S32x16x1, .f32⟩
  | .hbm, ⟨13, _⟩ => ⟨S32x1x16, .f32⟩
  | .hbm, ⟨14, _⟩ => ⟨S32x16x16, .f32⟩
  | .hbm, ⟨15, _⟩ => ⟨S32x16x16, .f32⟩
  | .hbm, ⟨16, _⟩ => ⟨S32x16x16, .f32⟩
  | .hbm, ⟨17, _⟩ => ⟨S32x256, .f32⟩
  | .hbm, ⟨18, _⟩ => ⟨S32x256, .f32⟩
  | .hbm, ⟨19, _⟩ => ⟨S32x256, .f32⟩
  | .hbm, ⟨20, _⟩ => ⟨S32x256, .f32⟩
  | .hbm, ⟨21, _⟩ => ⟨S_, .f32⟩
  | .hbm, ⟨22, _⟩ => ⟨S32x256, .f32⟩
  | .hbm, ⟨23, _⟩ => ⟨S32x256, .f32⟩
  | .hbm, ⟨24, _⟩ => ⟨S_, .f32⟩
  | .hbm, ⟨25, _⟩ => ⟨S32x256, .f32⟩
  | .hbm, ⟨26, _⟩ => ⟨S32x256, .f32⟩
  | .hbm, ⟨27, _⟩ => ⟨S32x256x1x1, .f32⟩
  | .hbm, ⟨28, _⟩ => ⟨S32x256x64x64, .f32⟩
  | .hbm, ⟨29, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16_S32x1x16_0_2 : S32x16.BroadcastsInDim S32x1x16 (![0, 2] : Fin 2 → Fin S32x1x16.rank)
  bcast_S32x16x1_S32x16x16_0_1_2 : S32x16x1.BroadcastsInDim S32x16x16 (![0, 1, 2] : Fin 3 → Fin S32x16x16.rank)
  bcast_S32x1x16_S32x16x16_0_1_2 : S32x1x16.BroadcastsInDim S32x16x16 (![0, 1, 2] : Fin 3 → Fin S32x16x16.rank)
  shapeCasts_S32x16x16_S32x256 : S32x16x16.ShapeCasts S32x256
  bcast_S32x256_S32x256x1x1_0_1 : S32x256.BroadcastsInDim S32x256x1x1 (![0, 1] : Fin 2 → Fin S32x256x1x1.rank)
  bcast_S32x256x1x1_S32x256x64x64_0_1_2_3 : S32x256x1x1.BroadcastsInDim S32x256x64x64 (![0, 1, 2, 3] : Fin 4 → Fin S32x256x64x64.rank)
  dot_S32x256_S16x256_S32x16_1_1_0_0_n_n_wf : DotDims.WF S32x256 S16x256 S32x16 [1] [1] [0] [0] [] []
  dot_S32x256_S256x256_S32x256_1_1_0_0_n_n_wf : DotDims.WF S32x256 S256x256 S32x256 [1] [1] [0] [0] [] []

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x256_S256x256_S32x256_1_1_0_0_n_n : DotDims S32x256 S256x256 S32x256 where
  lhsContracting := [1]
  rhsContracting := [1]
  lhsNonContracting := [0]
  rhsNonContracting := [0]
  lhsBatch := []
  rhsBatch := []
  wf := dot_S32x256_S256x256_S32x256_1_1_0_0_n_n_wf

class Facts : Prop extends Facts₀ where

variable [Facts]
-- ==== Proof.WholeRun.lean ====
/-
  The kernel's run with its result named. Every weakly fair execution of the idealized kernel's @main — the pooling
  region, the squeeze/excite host operations, the scaling region — terminates without a fault, and at the end every
  buffer that outlives a region holds what the last boundary of the run leaves in it: in particular the result
  buffer holds the scaling region's output array as the pipeline's write-backs leave it, and the three arguments
  hold what they held at launch. The later modules read that output array back, region by region, as a function of
  the arguments.
-/
import proofs.«149203_j36996848287772_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its five segments (two regions, three stretches of host operations): the final state has
    the result buffer at the last boundary's contents and the arguments as launched. The final state is read
    against the last thread state, which holds every unscoped buffer at those contents. -/
theorem run_result : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v16 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Whole

end
-- ==== Proof.Scale.lean ====
/-
  The scaling region, read as one function of the arrays it finds. Its grid has 4 x 2 x 4 points; at a point
  (i, j, k) the body loads the block [8i, 8i+8) x [128j, 128j+128) x [16k, 16k+16) x [0, 64) of the input and the block
  [8i, 8i+8) x [128j, 128j+128) of the gate, lays the gate block out as [8, 128, 1, 1], copies it along the two
  trailing axes and multiplies entry by entry; the product is written back to the same block of the output. Every
  entry of the output array is therefore x(b, c, h, w) · s(b, c): the blocks tile the array, and inside a block the
  gate entry that is used has the block's own row and channel.
-/
import proofs.«149203_j36996848287772_2_alg».proof.Proof.Gen.KernelIdeal.Frame
import Idealize.ShloMosaic.Lib.Pipeline.Value
import Idealize.ShloMosaic.Lib.ValueIdx

set_option maxRecDepth 16384

noncomputable section

namespace Cert.KernelIdeal.Scale

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The (row, channel) pair of an index of the big array: where the gate is read. -/
abbrev chan (i : S32x256x64x64.Idx) : S32x256.Idx :=
  ix2 (⟨(i 0).val, (i 0).isLt⟩ : Fin 32) (⟨(i 1).val, (i 1).isLt⟩ : Fin 256)

/-- The channel-wise scaling: entry (b, c, h, w) of `x` times entry (b, c) of `s`. -/
abbrev scaled (x : S32x256x64x64.Idx → Elt F .f32) (s : S32x256.Idx → Elt F .f32) : S32x256x64x64.Idx → Elt F .f32 :=
  fun i => FloatOps.mulf (x i) (s (chan i))

/-- The body's product at an index of the block: the input block's entry times the gate block's entry at the
    index's first two coordinates (the cast to [8, 128, 1, 1] keeps the row-major position, the copy along the
    trailing axes reads the unit axes at 0). -/
theorem product_apply (s : Vec F S8x128 .f32) (x : Vec F S8x128x16x64 .f32) (j : S8x128x16x64.Idx) :
    k1_pay1 s x j
      = FloatOps.mulf (x j) (s (ix2 (⟨(j 0).val, (j 0).isLt⟩ : Fin 8) (⟨(j 1).val, (j 1).isLt⟩ : Fin 128))) := by
  unfold k1_pay1
  show FloatOps.mulf (x j) (broadcastTo S8x128x16x64 (shapeCast S8x128x1x1 (shapeCast S8x128x1x1 (shapeCast S8x128 s _) _) _) _ j) = _
  refine congrArg (FloatOps.mulf (x j)) ?_
  simp only [shapeCast_self]
  refine (broadcastTo_apply _ _ j
    (ix4 (⟨(j 0).val, (j 0).isLt⟩ : Fin 8) (⟨(j 1).val, (j 1).isLt⟩ : Fin 128) (⟨0, Nat.one_pos⟩ : Fin 1) (⟨0, Nat.one_pos⟩ : Fin 1))
    (fun a => match a with
      | ⟨0, _⟩ => by show (j 0).val = if (8 : Nat) = 1 then 0 else (j 0).val; rw [if_neg (by decide)]
      | ⟨1, _⟩ => by show (j 1).val = if (128 : Nat) = 1 then 0 else (j 1).val; rw [if_neg (by decide)]
      | ⟨2, _⟩ => by show 0 = if (1 : Nat) = 1 then 0 else (j 2).val; rw [if_pos rfl]
      | ⟨3, _⟩ => by show 0 = if (1 : Nat) = 1 then 0 else (j 3).val; rw [if_pos rfl])).trans ?_
  exact shapeCast_apply s _ _ (ix2 (⟨(j 0).val, (j 0).isLt⟩ : Fin 8) (⟨(j 1).val, (j 1).isLt⟩ : Fin 128))
    (by rw [Shape.rowMajor_val_two, Shape.rowMajor_val_four]
        show (j 0).val * 128 + (j 1).val = (((j 0).val * 128 + (j 1).val) * 1 + 0) * 1 + 0
        omega)

/-- The printed index maps, decided over the 32 grid points: the input's block moves with the output's on all four
    axes, the gate's block on the first two, and the output's block indices stay in their ranges. -/
theorem index_facts : ∀ t : Fin cfg1.N, win1_0.index t (0 : Fin 4) = win1_2.index t (0 : Fin 4)
    ∧ win1_0.index t (1 : Fin 4) = win1_2.index t (1 : Fin 4)
    ∧ win1_0.index t (2 : Fin 4) = win1_2.index t (2 : Fin 4)
    ∧ win1_0.index t (3 : Fin 4) = win1_2.index t (3 : Fin 4)
    ∧ win1_1.index t (0 : Fin 2) = win1_2.index t (0 : Fin 4)
    ∧ win1_1.index t (1 : Fin 2) = win1_2.index t (1 : Fin 4)
    ∧ win1_2.index t (0 : Fin 4) ≤ 3 ∧ win1_2.index t (1 : Fin 4) ≤ 1
    ∧ win1_2.index t (2 : Fin 4) ≤ 3 ∧ win1_2.index t (3 : Fin 4) ≤ 0 :=
  (by decide +kernel : ∀ t : Fin grid1.N, _)

/-- Every block of the output is some point's. -/
theorem index_onto : ∀ (q0 : Fin 4) (q1 : Fin 2) (q2 : Fin 4), ∃ t : Fin cfg1.N, win1_2.index t = ![q0.val, q1.val, q2.val, 0] :=
  (by decide +kernel : ∀ (q0 : Fin 4) (q1 : Fin 2) (q2 : Fin 4), ∃ t : Fin grid1.N, win1_2.index t = ![q0.val, q1.val, q2.val, 0])

/-- What point `t` writes back is block `t` of the scaled array. -/
theorem flushed_eq (c : Dev nD) (t : Fin cfg1.N) :
    (dat1 V c).flushed 2 t = ((cfg1.win 2).blk t).view.read (Elt F) (scaled (V c main_arg0) (V c main_v15)) := by
  show (cfg1.win 2).cut (grid1.coords t) ((dat1 V c).after 2 t) = _
  rw [after1_2]
  unfold out1_2
  rw [View.canon_unit_zero zeros4]
  simp only [View.ld_unit_zero (S := S8x128x16x64) zeros4, View.ld_unit_zero (S := S8x128) zeros2]
  obtain ⟨e0, e1, e2, e3, e4, e5, -, -, -, -⟩ := index_facts t
  funext j
  refine (product_apply _ _ j).trans ?_
  show FloatOps.mulf (V c main_arg0 (((cfg1.win 0).blk t).view.emb j))
      (V c main_v15 (((cfg1.win 1).blk t).view.emb (ix2 (⟨(j 0).val, (j 0).isLt⟩ : Fin 8) (⟨(j 1).val, (j 1).isLt⟩ : Fin 128))))
    = FloatOps.mulf (V c main_arg0 (((cfg1.win 2).blk t).view.emb j)) (V c main_v15 (chan (((cfg1.win 2).blk t).view.emb j)))
  have h0 : ((cfg1.win 0).blk t).view.emb j = ((cfg1.win 2).blk t).view.emb j := by
    funext a; apply Fin.ext
    match a with
    | ⟨0, _⟩ => show win1_0.index t (0 : Fin 4) * 8 + 1 * (j 0).val = win1_2.index t (0 : Fin 4) * 8 + 1 * (j 0).val; omega
    | ⟨1, _⟩ => show win1_0.index t (1 : Fin 4) * 128 + 1 * (j 1).val = win1_2.index t (1 : Fin 4) * 128 + 1 * (j 1).val; omega
    | ⟨2, _⟩ => show win1_0.index t (2 : Fin 4) * 16 + 1 * (j 2).val = win1_2.index t (2 : Fin 4) * 16 + 1 * (j 2).val; omega
    | ⟨3, _⟩ => show win1_0.index t (3 : Fin 4) * 64 + 1 * (j 3).val = win1_2.index t (3 : Fin 4) * 64 + 1 * (j 3).val; omega
  have h1 : ((cfg1.win 1).blk t).view.emb (ix2 (⟨(j 0).val, (j 0).isLt⟩ : Fin 8) (⟨(j 1).val, (j 1).isLt⟩ : Fin 128))
      = chan (((cfg1.win 2).blk t).view.emb j) := by
    funext a; apply Fin.ext
    match a with
    | ⟨0, _⟩ => show win1_1.index t (0 : Fin 2) * 8 + 1 * (j 0).val = win1_2.index t (0 : Fin 4) * 8 + 1 * (j 0).val; omega
    | ⟨1, _⟩ => show win1_1.index t (1 : Fin 2) * 128 + 1 * (j 1).val = win1_2.index t (1 : Fin 4) * 128 + 1 * (j 1).val; omega
  rw [h0, h1]

/-- An index of the array is in point `t`'s block iff each coordinate is in the block's range on its axis. -/
theorem mem_block (t : Fin cfg1.N) (i : S32x256x64x64.Idx) :
    i ∈ ((cfg1.win 2).blk t).view.set ↔ ∀ a : Fin 4, win1_2.index t a * S8x128x16x64.size a ≤ (i a).val ∧ (i a).val < win1_2.index t a * S8x128x16x64.size a + S8x128x16x64.size a := by
  show i ∈ ((View.whole main_v16).slice (win1_2.rect t)).set ↔ _
  rw [View.set_slice_whole, Rect.mem_set_unit]
  exact Iff.rfl

/-- The blocks tile the array: the index (b, c, h, w) is in the block of the point whose block indices are
    (b / 8, c / 128, h / 16, 0), and every point writes back. -/
theorem covered (i : S32x256x64x64.Idx) :
    ∃ t : Fin cfg1.N, (cfg1.win 2).flush t = true ∧ i ∈ ((cfg1.win 2).blk t).view.set := by
  have hi0 : (i 0).val < 32 := (i 0).isLt
  have hi1 : (i 1).val < 256 := (i 1).isLt
  have hi2 : (i 2).val < 64 := (i 2).isLt
  have hi3 : (i 3).val < 64 := (i 3).isLt
  obtain ⟨t, ht⟩ := index_onto ⟨(i 0).val / 8, by omega⟩ ⟨(i 1).val / 128, by omega⟩ ⟨(i 2).val / 16, by omega⟩
  have q0 : win1_2.index t (0 : Fin 4) = (i 0).val / 8 := congrFun ht 0
  have q1 : win1_2.index t (1 : Fin 4) = (i 1).val / 128 := congrFun ht 1
  have q2 : win1_2.index t (2 : Fin 4) = (i 2).val / 16 := congrFun ht 2
  have q3 : win1_2.index t (3 : Fin 4) = 0 := congrFun ht 3
  refine ⟨t, flush1_2 t, ?_⟩
  rw [mem_block]
  intro a
  match a with
  | ⟨0, _⟩ => show win1_2.index t (0 : Fin 4) * 8 ≤ (i 0).val ∧ (i 0).val < win1_2.index t (0 : Fin 4) * 8 + 8; omega
  | ⟨1, _⟩ => show win1_2.index t (1 : Fin 4) * 128 ≤ (i 1).val ∧ (i 1).val < win1_2.index t (1 : Fin 4) * 128 + 128; omega
  | ⟨2, _⟩ => show win1_2.index t (2 : Fin 4) * 16 ≤ (i 2).val ∧ (i 2).val < win1_2.index t (2 : Fin 4) * 16 + 16; omega
  | ⟨3, _⟩ => show win1_2.index t (3 : Fin 4) * 64 ≤ (i 3).val ∧ (i 3).val < win1_2.index t (3 : Fin 4) * 64 + 64; omega

/-- The output array after the region: the input found there scaled channel by channel by the gate found there. -/
theorem final (c : Dev nD) : (dat1 V c).arrAt 2 cfg1.N = scaled (V c main_arg0) (V c main_v15) :=
  (dat1 V c).arrAt_eq_of_cover 2 (scaled (V c main_arg0) (V c main_v15)) (fun t _ => flushed_eq V c t) covered

end Cert.KernelIdeal.Scale

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.Pool.lean ====
/-
  The pooling region, read as one function of the array it finds. Its grid has 2 x 8 points; at the point (i, k) the
  body loads the block of rows [16i, 16i+16), all 256 channels, [8k, 8k+8) of the third axis and all 64 lanes, sums it
  along the lanes and then along the third axis, and adds the [16, 256] result to an accumulator that stays in the
  output window's buffer while k runs (the output's block index depends on i only). The accumulator is reset to the
  zero word when k = 0, and when k = 7 it is multiplied by the word of 1/4096 and written back. So after the point
  (i, k) the buffer holds, at (p, c), the sum over the first k+1 blocks of the third axis of the lane sums of row
  16i + p, channel c — a partial sum taken block by block — and the array ends holding, at (b, c), the sum over the
  whole 64 x 64 tile times that word.
-/
import proofs.«149203_j36996848287772_2_alg».proof.Proof.Gen.KernelIdeal.Frame
import proofs.«149203_j36996848287772_2_alg».proof.Proof.LibBlockedSum
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Pool

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-! ## One point's body, at any float values -/

section AnyValues

variable {F : FTy → Type} [FloatOps F]

/-- A block summed over its two trailing axes: along the lanes first, then along the third axis. -/
abbrev tileSums (x : Vec F S16x256x8x64 .f32) : FVec F S16x256 .f32 :=
  multiReduction .add [2] S16x256
    (multiReduction .add [3] S16x256x8 x 0x00000000#32 reduces_S16x256x8x64_S16x256x8 (.inl rfl) rfl)
    0x00000000#32 reduces_S16x256x8_S16x256 (.inl rfl) rfl

/-- The accumulator's reset value. -/
abbrev zeroBlock : Vec F S16x256 .f32 := broadcast S16x256 (Scalar.ofBits .f32 0x00000000#32)
/-- The word of 1/4096 in every entry. -/
abbrev recipBlock : Vec F S16x256 .f32 := broadcast S16x256 (Scalar.ofBits .f32 0x39800000#32)

/-- When k = 0 (and not 7): the buffer is reset, read back, and left at zero plus the block's sums. -/
theorem first_step (c : Dev nD) (i : grid0.Coords) (a2 : Memref sig .tc .vmem S16x256x8x64 .f32) (h2 : a2.IsWhole)
    (a3 : Memref sig .tc .vmem S16x256 .f32) (h3 : a3.IsWhole) (hc0 : cond0_0 i) (hc1 : ¬cond0_1 i)
    (x : Vec F S16x256x8x64 .f32) :
    out0_A_1 c i a2 h2 a3 h3 hc0 hc1 x = addf zeroBlock (tileSums x) := by
  unfold out0_A_1
  rw [View.read_writes_eq_canon _ _ _ (cover0_A_1 c i a2 h2 a3 h3 hc0 hc1 x)]
  unfold kernelRun0_A
  dsimp only
  sl_unfold_words
  rw [View.canon_cons_unit_zero (S := S16x256) zeros2, View.readCov_unit_zero (S := S16x256) _ zeros2]
  unfold k0_pay2 k0_pay1
  simp only [View.readAt_eq_ld, h2.read_unread, View.ld_unit_zero (S := S16x256x8x64) zeros4, shapeCast_self]

/-- When 0 < k < 7: the buffer, holding `acc`, is left at `acc` plus the block's sums. -/
theorem middle_step (c : Dev nD) (i : grid0.Coords) (a2 : Memref sig .tc .vmem S16x256x8x64 .f32) (h2 : a2.IsWhole)
    (a3 : Memref sig .tc .vmem S16x256 .f32) (h3 : a3.IsWhole) (hc0 : ¬cond0_0 i) (hc1 : ¬cond0_1 i)
    (x : Vec F S16x256x8x64 .f32) (acc : Vec F S16x256 .f32) :
    out0_B_1 c i a2 h2 a3 h3 hc0 hc1 x acc = addf acc (tileSums x) := by
  unfold out0_B_1
  rw [View.read_writes_eq_canon _ _ _ (cover0_B_1 c i a2 h2 a3 h3 hc0 hc1 x acc)]
  unfold kernelRun0_B
  dsimp only
  rw [View.canon_unit_zero (S := S16x256) zeros2]
  unfold k0_pay2
  simp only [View.readAt_eq_ld, h2.read_unread, h3.read_unread, View.ld_unit_zero (S := S16x256x8x64) zeros4,
    View.ld_unit_zero (S := S16x256) zeros2, shapeCast_self]

/-- When k = 7: the buffer, holding `acc`, gets `acc` plus the block's sums, is read back, and is left at that
    times the word of 1/4096. -/
theorem last_step (c : Dev nD) (i : grid0.Coords) (a2 : Memref sig .tc .vmem S16x256x8x64 .f32) (h2 : a2.IsWhole)
    (a3 : Memref sig .tc .vmem S16x256 .f32) (h3 : a3.IsWhole) (hc0 : ¬cond0_0 i) (hc1 : cond0_1 i)
    (x : Vec F S16x256x8x64 .f32) (acc : Vec F S16x256 .f32) :
    out0_C_1 c i a2 h2 a3 h3 hc0 hc1 x acc = mulf (addf acc (tileSums x)) recipBlock := by
  unfold out0_C_1
  rw [View.read_writes_eq_canon _ _ _ (cover0_C_1 c i a2 h2 a3 h3 hc0 hc1 x acc)]
  unfold kernelRun0_C
  dsimp only
  sl_unfold_words
  rw [View.canon_cons_unit_zero (S := S16x256) zeros2, View.readCov_unit_zero (S := S16x256) _ zeros2]
  unfold k0_pay3 k0_pay2
  simp only [View.readAt_eq_ld, h2.read_unread, h3.read_unread, View.ld_unit_zero (S := S16x256x8x64) zeros4,
    View.ld_unit_zero (S := S16x256) zeros2, shapeCast_self]

end AnyValues

/-! ## At the ideal values -/

variable (V : (c : Dev nD) → (b : Ref sig .tc) → Buf (Elt Ideal) ((c : Thread nD τ).loc b))

/-- A block's sums at (p, c): the double sum over the block's third axis and its lanes. -/
theorem tileSums_apply (x : FVec Ideal S16x256x8x64 .f32) (p : Fin 16) (q : Fin 256) :
    tileSums (F := Ideal) x (ix2 p q) = ∑ h : Fin 8, ∑ w : Fin 64, x (ix4 p q h w) := by
  refine (Ideal.multiReduction_add_single _ 0x00000000#32 reduces_S16x256x8_S16x256 (.inl rfl) rfl (ix2 p q)).trans ?_
  refine Finset.sum_congr rfl fun h _ => ?_
  refine (Ideal.multiReduction_add_single x 0x00000000#32 reduces_S16x256x8x64_S16x256x8 (.inl rfl) rfl _).trans ?_
  refine Finset.sum_congr rfl fun w _ => congrArg x ?_
  funext a
  apply Fin.ext
  match a with
  | ⟨0, _⟩ => rfl
  | ⟨1, _⟩ => rfl
  | ⟨2, _⟩ => rfl
  | ⟨3, _⟩ => rfl

/-- The printed index maps, decided over the 16 grid points t = 8i + k: the input's block indices are
    (i, 0, k, 0), the output's (i, 0). -/
theorem index_facts : ∀ t : Fin cfg0.N, win0_0.index t (0 : Fin 4) = t.val / 8
    ∧ win0_0.index t (1 : Fin 4) = 0
    ∧ win0_0.index t (2 : Fin 4) = t.val % 8
    ∧ win0_0.index t (3 : Fin 4) = 0
    ∧ win0_1.index t (0 : Fin 2) = t.val / 8
    ∧ win0_1.index t (1 : Fin 2) = 0 :=
  (by decide +kernel : ∀ t : Fin grid0.N, _)

/-- The row of the big array that row `p` of point `n`'s block is: 16 · (n / 8) + p (reduced modulo 32 so that it
    is a row for every `n`; for a point of the grid nothing is reduced). -/
def rowOf (n : ℕ) (p : Fin 16) : Fin 32 := ⟨(16 * (n / 8) + p.val) % 32, Nat.mod_lt _ (by decide)⟩

/-- The lane sums of row `r`, channel `q`, as a function of the third coordinate. -/
def laneSums (X : S32x256x64x64.Idx → EReal) (r : Fin 32) (q : Fin 256) : Fin 64 → EReal :=
  fun h => ∑ w : Fin 64, X (ix4 r q h w)

/-- The input block at point `t`, read at (p, c, h, w): the array at row 16 · (t / 8) + p, channel c, position
    8 · (t mod 8) + h of the third axis, lane w. -/
theorem block_apply (c : Dev nD) (t : Fin cfg0.N) (p : Fin 16) (q : Fin 256) (h : Fin 8) (w : Fin 64) :
    (iblk0 V c 0 t : Vec Ideal S16x256x8x64 .f32) (ix4 p q h w)
      = V c main_arg0 (ix4 (rowOf t.val p) q (BlockedSum.blkIdx (by decide : 0 < 64) 8 (t.val % 8) h) w) := by
  obtain ⟨e0, e1, e2, e3, -, -⟩ := index_facts t
  have hN : t.val < 16 := lt_of_lt_of_eq t.isLt (show cfg0.N = 16 from N_0)
  have hp := p.isLt
  have hq := q.isLt
  have hh := h.isLt
  have hw := w.isLt
  unfold iblk0
  rw [View.read_apply]
  show V c main_arg0 _ = V c main_arg0 _
  refine congrArg (V c main_arg0) ?_
  funext a
  apply Fin.ext
  match a with
  | ⟨0, _⟩ => show win0_0.index t (0 : Fin 4) * 16 + 1 * p.val = (16 * (t.val / 8) + p.val) % 32; omega
  | ⟨1, _⟩ => show win0_0.index t (1 : Fin 4) * 256 + 1 * q.val = q.val; omega
  | ⟨2, _⟩ => show win0_0.index t (2 : Fin 4) * 8 + 1 * h.val = (8 * (t.val % 8) + h.val) % 64; omega
  | ⟨3, _⟩ => show win0_0.index t (3 : Fin 4) * 64 + 1 * w.val = w.val; omega

/-- What point `t` adds at (p, c): block `t mod 8` of the sum of that row's lane sums over the third axis. -/
theorem tile_term (c : Dev nD) (t : Fin cfg0.N) (p : Fin 16) (q : Fin 256) :
    tileSums (F := Ideal) (iblk0 V c 0 t) (ix2 p q)
      = BlockedSum.blockSum (by decide : 0 < 64) 8 (laneSums (V c main_arg0) (rowOf t.val p) q) (t.val % 8) := by
  refine (tileSums_apply _ p q).trans ?_
  unfold BlockedSum.blockSum laneSums
  exact Finset.sum_congr rfl fun h _ => Finset.sum_congr rfl fun w _ => block_apply V c t p q h w

/-- The accumulator after point `n`, at (p, c): the partial sum over the blocks 0 … n mod 8 of that row's lane sums,
    and at the last block of a row group the whole sum times the word of 1/4096. -/
def running (X : S32x256x64x64.Idx → EReal) (n : ℕ) (p : Fin 16) (q : Fin 256) : EReal :=
  if n % 8 = 7 then
    BlockedSum.partialSum (by decide : 0 < 64) 8 (laneSums X (rowOf n p) q) 7 * Ideal.ofBits .f32 0x39800000#32
  else BlockedSum.partialSum (by decide : 0 < 64) 8 (laneSums X (rowOf n p) q) (n % 8)

/-- A point with k = 0 leaves the first block's sum. -/
theorem at_reset (c : Dev nD) (t : Fin cfg0.N) (h0 : t.val % 8 = 0) (p : Fin 16) (q : Fin 256) :
    outsAt0 V c t.val t.isLt (ix2 p q) = running (V c main_arg0) t.val p q := by
  have h1 : ¬t.val % 8 = 7 := by omega
  rw [outsAt0_A V c t h0 h1, first_step]
  show Ideal.ofBits .f32 0x00000000#32 + tileSums (F := Ideal) (iblk0 V c 0 t) (ix2 p q) = _
  rw [tile_term, Ideal.ofBits_zero_f32, zero_add]
  unfold running
  rw [if_neg h1, h0, BlockedSum.partialSum_zero]

/-- The running contents of the output's buffer are the partial sums: by induction on the point. -/
theorem outsAt_eq (c : Dev nD) : ∀ (n : ℕ) (h : n < cfg0.N) (p : Fin 16) (q : Fin 256),
    outsAt0 V c n h (ix2 p q) = running (V c main_arg0) n p q
  | 0, h, p, q => at_reset V c ⟨0, h⟩ rfl p q
  | n + 1, h, p, q => by
    have hN : n + 1 < 16 := lt_of_lt_of_eq h (show cfg0.N = 16 from N_0)
    by_cases h0 : (n + 1) % 8 = 0
    · exact at_reset V c ⟨n + 1, h⟩ h0 p q
    · have hrow : rowOf n p = rowOf (n + 1) p := by
        unfold rowOf
        refine Fin.ext ?_
        show (16 * (n / 8) + p.val) % 32 = (16 * ((n + 1) / 8) + p.val) % 32
        have : n / 8 = (n + 1) / 8 := by omega
        rw [this]
      have hprev : ¬n % 8 = 7 := by omega
      have hk : n % 8 + 1 = (n + 1) % 8 := by omega
      by_cases h1 : (n + 1) % 8 = 7
      · rw [outsAt0_C V c ⟨n + 1, h⟩ h0 h1, last_step]
        show (outsAt0 V c n _ (ix2 p q) + tileSums (F := Ideal) (iblk0 V c 0 ⟨n + 1, h⟩) (ix2 p q))
          * Ideal.ofBits .f32 0x39800000#32 = _
        rw [outsAt_eq c n _ p q, tile_term]
        unfold running
        rw [if_neg hprev, if_pos h1, hrow]
        show (BlockedSum.partialSum _ 8 _ (n % 8) + BlockedSum.blockSum _ 8 _ ((n + 1) % 8)) * _ = _
        rw [← hk, ← BlockedSum.partialSum_succ, hk, h1]
      · rw [outsAt0_B V c ⟨n + 1, h⟩ h0 h1, middle_step]
        show outsAt0 V c n _ (ix2 p q) + tileSums (F := Ideal) (iblk0 V c 0 ⟨n + 1, h⟩) (ix2 p q) = _
        rw [outsAt_eq c n _ p q, tile_term]
        unfold running
        rw [if_neg hprev, if_neg h1, hrow]
        show BlockedSum.partialSum _ 8 _ (n % 8) + BlockedSum.blockSum _ 8 _ ((n + 1) % 8) = _
        rw [← hk, ← BlockedSum.partialSum_succ]

/-- The pooled array the region leaves: at (b, c) the sum over the 64 x 64 tile times the word of 1/4096. -/
def pooled (X : S32x256x64x64.Idx → EReal) : S32x256.Idx → EReal :=
  fun i => (∑ h : Fin 64, ∑ w : Fin 64, X (ix4 (⟨(i 0).val, (i 0).isLt⟩ : Fin 32) (⟨(i 1).val, (i 1).isLt⟩ : Fin 256) h w))
    * Ideal.ofBits .f32 0x39800000#32

/-- The one write-back of a row group, at its last point, writes that group's block of the pooled array: after the
    last block the partial sum is the whole sum. -/
theorem flushed_eq (c : Dev nD) (t : Fin cfg0.N) (hf : (cfg0.win 1).flush t = true) :
    (dat0 V c).flushed 1 t = ((cfg0.win 1).blk t).view.read (Elt Ideal) (pooled (V c main_arg0)) := by
  have hN : t.val < 16 := lt_of_lt_of_eq t.isLt (show cfg0.N = 16 from N_0)
  have h7 : t.val % 8 = 7 := (flush0_1 t).mp hf
  obtain ⟨-, -, -, -, e4, e5⟩ := index_facts t
  show (cfg0.win 1).cut (grid0.coords t) ((dat0 V c).after 1 t) = _
  rw [after0_1]
  funext j
  obtain ⟨p, q, rfl⟩ : ∃ (p : Fin 16) (q : Fin 256), j = ix2 p q := ⟨j 0, j 1, eq_ix2 j⟩
  refine (outsAt_eq V c t.val t.isLt p q).trans ?_
  unfold running
  rw [if_pos h7, BlockedSum.partialSum_last (by decide) (by decide : 8 * 8 = 64) _ (by decide : 7 + 1 = 8)]
  show _ = pooled (V c main_arg0) (((cfg0.win 1).blk t).view.emb (ix2 p q))
  unfold pooled laneSums
  have hp := p.isLt
  have hq := q.isLt
  have er : (⟨((((cfg0.win 1).blk t).view.emb (ix2 p q)) 0).val, ((((cfg0.win 1).blk t).view.emb (ix2 p q)) 0).isLt⟩ : Fin 32)
      = rowOf t.val p :=
    Fin.ext (by show win0_1.index t (0 : Fin 2) * 16 + 1 * p.val = (16 * (t.val / 8) + p.val) % 32; omega)
  have ec : (⟨((((cfg0.win 1).blk t).view.emb (ix2 p q)) 1).val, ((((cfg0.win 1).blk t).view.emb (ix2 p q)) 1).isLt⟩ : Fin 256)
      = q :=
    Fin.ext (by show win0_1.index t (1 : Fin 2) * 256 + 1 * q.val = q.val; omega)
  rw [er, ec]

/-- An index of the pooled array is in point `t`'s block iff each coordinate is in the block's range on its axis. -/
theorem mem_block (t : Fin cfg0.N) (i : S32x256.Idx) :
    i ∈ ((cfg0.win 1).blk t).view.set ↔ ∀ a : Fin 2, win0_1.index t a * S16x256.size a ≤ (i a).val ∧ (i a).val < win0_1.index t a * S16x256.size a + S16x256.size a := by
  show i ∈ ((View.whole main_v0).slice (win0_1.rect t)).set ↔ _
  rw [View.set_slice_whole, Rect.mem_set_unit]
  exact Iff.rfl

/-- The two written-back blocks tile the pooled array: row b is in the block of the last point of row group b / 16. -/
theorem covered (i : S32x256.Idx) :
    ∃ t : Fin cfg0.N, (cfg0.win 1).flush t = true ∧ i ∈ ((cfg0.win 1).blk t).view.set := by
  have hi0 : (i 0).val < 32 := (i 0).isLt
  have hi1 : (i 1).val < 256 := (i 1).isLt
  have hlt : 8 * ((i 0).val / 16) + 7 < cfg0.N := by rw [show cfg0.N = 16 from N_0]; omega
  obtain ⟨-, -, -, -, e4, e5⟩ := index_facts ⟨8 * ((i 0).val / 16) + 7, hlt⟩
  refine ⟨⟨8 * ((i 0).val / 16) + 7, hlt⟩, (flush0_1 _).mpr (by show (8 * ((i 0).val / 16) + 7) % 8 = 7; omega), ?_⟩
  rw [mem_block]
  have e4' : win0_1.index ⟨8 * ((i 0).val / 16) + 7, hlt⟩ (0 : Fin 2) = (8 * ((i 0).val / 16) + 7) / 8 := e4
  intro a
  match a with
  | ⟨0, _⟩ =>
    show win0_1.index ⟨8 * ((i 0).val / 16) + 7, hlt⟩ (0 : Fin 2) * 16 ≤ (i 0).val
      ∧ (i 0).val < win0_1.index ⟨8 * ((i 0).val / 16) + 7, hlt⟩ (0 : Fin 2) * 16 + 16
    omega
  | ⟨1, _⟩ =>
    show win0_1.index ⟨8 * ((i 0).val / 16) + 7, hlt⟩ (1 : Fin 2) * 256 ≤ (i 1).val
      ∧ (i 1).val < win0_1.index ⟨8 * ((i 0).val / 16) + 7, hlt⟩ (1 : Fin 2) * 256 + 256
    omega

/-- The pooled array after the region: the tile sums of the input found there, times the word of 1/4096. -/
theorem final (c : Dev nD) : (dat0 V c).arrAt 1 cfg0.N = pooled (V c main_arg0) :=
  (dat0 V c).arrAt_eq_of_cover 1 (pooled (V c main_arg0)) (flushed_eq V c) covered

end Cert.KernelIdeal.Pool

end
-- ==== Proof.Gate.lean ====
/-
  The squeeze/excite stage between the two regions. From a pooled array P [32, 256] and the two weight matrices the
  host computes y = max(P · W1ᵀ, 0) [32, 16], the outer products y(b, i) · y(b, j) flattened to [32, 256], and the
  gate 1 / (1 + exp(−(outer · W2ᵀ))) [32, 256]. Both programs spell this stage with the same operations, the same
  dimension records and the same literal words, so it is kept as ONE function `gate` of its three operands and never
  opened: the kernel applies it to what the pooling region leaves, the reference to its own mean.
-/
import proofs.«149203_j36996848287772_2_alg».proof.Proof.Gen.KernelIdeal.Frame
import Idealize.ShloMosaic.Lib.StableHlo.Run

set_option maxRecDepth 16384

noncomputable section

namespace Cert.KernelIdeal.Gate

open Cert.KernelIdeal Cert.KernelIdeal.Gen
open Idealize.ShloMosaic Idealize.ShloMosaic.TcCoe Idealize.SL.Sem Idealize.ShloMosaic.StableHlo

variable {F : FTy → Type} [FloatOps F]

/-- The first layer: the pooled rows against the rows of W1, clamped below at the zero word. -/
def hidden (P : FVec F S32x256 .f32) (w1 : FVec F S16x256 .f32) : FVec F S32x16 .f32 :=
  maximumf (Host.dotGeneral dot_S32x256_S16x256_S32x16_1_1_0_0_n_n none P w1)
    (broadcastInDim S32x16 ![] bcast_S_S32x16 (constant S_ .f32 0x00000000#32))

/-- The gate: the flattened outer products of the first layer's rows against the rows of W2, through the logistic
    function written as 1 / (1 + exp(−·)). -/
def gate (P : FVec F S32x256 .f32) (w1 : FVec F S16x256 .f32) (w2 : FVec F S256x256 .f32) : FVec F S32x256 .f32 :=
  Host.divf (broadcastInDim S32x256 ![] bcast_S_S32x256 (constant S_ .f32 0x3F800000#32))
    (addf (broadcastInDim S32x256 ![] bcast_S_S32x256 (constant S_ .f32 0x3F800000#32))
      (Host.exp (Host.negf (Host.dotGeneral dot_S32x256_S256x256_S32x256_1_1_0_0_n_n none
        (shapeCast _
          (mulf
            (broadcastInDim S32x16x16 ![0, 1, 2] bcast_S32x16x1_S32x16x16_0_1_2
              (broadcastInDim S32x16x1 ![0, 1] bcast_S32x16_S32x16x1_0_1 (hidden P w1)))
            (broadcastInDim S32x16x16 ![0, 1, 2] bcast_S32x1x16_S32x16x16_0_1_2
              (broadcastInDim S32x1x16 ![0, 2] bcast_S32x16_S32x1x16_0_2 (hidden P w1))))
          shapeCasts_S32x16x16_S32x256)
        w2))))

variable (m : (ℓ : Loc nD τ sig) → Buf (Elt F) ℓ) (ρ : Dev nD → PrngReg)

/-- When the scaling region is entered its gate operand holds `gate` of what the pooling region left in its output
    array and of the two weight arguments as they were then: the three stretches of host operations read back. -/
theorem entry_gate (c : Dev nD) :
    V4 m ρ c main_v15
      = gate (W1 m ρ c (Proc.devRef .tc main_v0)) (W1 m ρ c (Proc.devRef .tc main_arg1)) (W1 m ρ c (Proc.devRef .tc main_arg2)) := by
  show StableHlo.after hostOps1_2 (StableHlo.after hostOps1_1 (StableHlo.after hostOps1 (W1 m ρ c))) (Proc.devRef .tc main_v15) = _
  after_results
  rfl

/-- The weights are not among the pooling region's arrays, so after it they hold what they held at launch. -/
theorem weights1_kept (c : Dev nD) : W1 m ρ c (Proc.devRef .tc main_arg1) = m ((c : Thread nD τ).loc main_arg1) :=
  (W1_of_ne m ρ c main_arg1 (by decide)).trans rfl
theorem weights2_kept (c : Dev nD) : W1 m ρ c (Proc.devRef .tc main_arg2) = m ((c : Thread nD τ).loc main_arg2) :=
  (W1_of_ne m ρ c main_arg2 (by decide)).trans rfl

/-- The input array reaches the scaling region as launched: no host operation writes it and the pooling region only
    reads it. -/
theorem entry_input (c : Dev nD) : V4 m ρ c main_arg0 = m ((c : Thread nD τ).loc main_arg0) :=
  (((W5_arr m ρ c 0).trans (((dat1 (V4 m ρ) c).arrAt_in 0 rfl _).trans (A_eq1 (V4 m ρ) c 0))).symm).trans (W5_main_arg0 m ρ c)

end Cert.KernelIdeal.Gate

end
-- ==== Proof.KernelValue.lean ====
/-
  The kernel's result as one function of its arguments, at the ideal values. Read back from the end: the result
  buffer holds the scaling region's output array, which is the input found at that region's entry scaled channel by
  channel by the gate found there; the input is still the launch input; the gate is the squeeze/excite stage of what
  the pooling region left and of the launch weights; and the pooling region left the tile sums of the launch input
  times the word of 1/4096.
-/
import proofs.«149203_j36996848287772_2_alg».proof.Proof.WholeRun
import proofs.«149203_j36996848287772_2_alg».proof.Proof.Scale
import proofs.«149203_j36996848287772_2_alg».proof.Proof.Pool
import proofs.«149203_j36996848287772_2_alg».proof.Proof.Gate

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The squeeze-and-excitation of an input by two weight matrices, as the kernel computes it: the input scaled
    channel by channel by the gate of its pooled tile sums. -/
abbrev excite (x : S32x256x64x64.Idx → EReal) (w1 : S16x256.Idx → EReal) (w2 : S256x256.Idx → EReal) :
    S32x256x64x64.Idx → EReal :=
  Scale.scaled (F := Ideal) x (Gate.gate (F := Ideal) (Pool.pooled x) w1 w2)

/-- The last boundary's contents of the result buffer are `excite` of the three arguments as launched. -/
theorem result_eq (c : Dev nD) :
    W5 m ρ c (Proc.devRef .tc main_v16)
      = excite (m ((c : Thread nD τ).loc main_arg0)) (m ((c : Thread nD τ).loc main_arg1)) (m ((c : Thread nD τ).loc main_arg2)) := by
  have e1 : W5 m ρ c (Proc.devRef .tc main_v16) = Scale.scaled (F := Ideal) (V4 m ρ c main_arg0) (V4 m ρ c main_v15) :=
    (W5_arr m ρ c 2).trans (Scale.final (V4 m ρ) c)
  have e2 : V4 m ρ c main_v15
      = Gate.gate (F := Ideal) (Pool.pooled (m ((c : Thread nD τ).loc main_arg0))) (m ((c : Thread nD τ).loc main_arg1))
          (m ((c : Thread nD τ).loc main_arg2)) := by
    rw [Gate.entry_gate, Gate.weights1_kept, Gate.weights2_kept]
    exact congrArg (fun P => Gate.gate (F := Ideal) P (m ((c : Thread nD τ).loc main_arg1)) (m ((c : Thread nD τ).loc main_arg2)))
      ((W1_arr m ρ c 1).trans (Pool.final (V0 m ρ) c))
  rw [e1, e2, Gate.entry_input]

/-- The kernel's run, read: the result buffer ends at `excite` of the arguments, the arguments unchanged. -/
theorem run : θ_run defs (onTc (τ := τ) (main (F := Ideal))) ⟨m, fun _ => 0, ρ⟩ (fun r => ∀ c : Dev nD,
      r.2.mem ((c.tc : Thread nD τ).loc main_v16)
        = excite (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (run_result (F := Ideal) m ρ)

end Cert.KernelIdeal.Whole

end
-- ==== Proof.Mean.lean ====
/-
  The one arithmetic law that joins the two programs' averages. The kernel multiplies a tile's total by the f32 word
  0x39800000, which is exactly 2⁻¹² = 1/4096 (64 · 64 = 4096 = 2¹², so the reciprocal is a power of two and no
  rounding happened when it was folded); the reference divides the total, added to its zero initial value, by the
  word of 4096. On the extended reals a division by a nonzero real IS the product with its reciprocal, at the
  infinities too, so the two averages agree for every total, finite or not.
-/
import Idealize.ShloMosaic.PureOps.Ideal
import Idealize.ShloMosaic.PureOps.Ideal.Laws

noncomputable section

namespace Cert.Mean

open Idealize.ShloMosaic

/-- The word of `4096.0` denotes the real 4096. -/
theorem word_4096 : Ideal.ofBits .f32 0x45800000#32 = ((4096 : ℝ) : EReal) := by
  simp [Ideal.ofBits, Ideal.ieee, -EReal.coe_mul]; norm_num

/-- The word of `2.44140625E-4` denotes the real 1/4096. -/
theorem word_recip_4096 : Ideal.ofBits .f32 0x39800000#32 = ((1 / 4096 : ℝ) : EReal) := by
  simp [Ideal.ofBits, Ideal.ieee, -EReal.coe_mul]; norm_num

/-- A total times the word of 1/4096 is the zero word plus the total, divided by the word of 4096. -/
theorem times_recip_eq_div (s : EReal) :
    s * Ideal.ofBits .f32 0x39800000#32
      = Ideal.div (Ideal.ofBits .f32 0x00000000#32 + s) (Ideal.ofBits .f32 0x45800000#32) := by
  rw [word_recip_4096, word_4096, Ideal.ofBits_zero_f32, zero_add, Ideal.div_coe (by norm_num : (4096 : ℝ) ≠ 0)]

end Cert.Mean

end
-- ==== Proof.LibTileSum.lean ====
/-
  A host sum over the two trailing axes of a rank-4 array, read at an index.
-/
import Idealize.ShloMosaic.PureOps.Ideal
import Idealize.ShloMosaic.PureOps.Ideal.Laws
import Idealize.ShloMosaic.PureOps.Reduce
import Idealize.ShloMosaic.Lib.ValueIdx

namespace Cert.LibTileSum

open Idealize.ShloMosaic Idealize.ShloMosaic.ValueIdx

/-- The host's `stablehlo.reduce … add` of an array [a, b, c, d] across the axes [2, 3] (a sum over each
    c x d tile), read at (i, j) at the ideal values: the initial value plus the double sum over the tile's
    coordinates of the operand at (i, j, p, q).  The indices that drop to (i, j) are exactly the (i, j, p, q):
    the sum over them is re-indexed by the pair (p, q). -/
theorem hostReduceAdd_tile {a b c d : ℕ}
    (h' : (⟨4, ![a, b, c, d]⟩ : Shape).ReducesTo [2, 3] ⟨2, ![a, b]⟩)
    (x : (⟨4, ![a, b, c, d]⟩ : Shape).Idx → EReal) (init : EReal) (i : Fin a) (j : Fin b) :
    Ideal.hostReduceAdd h' x init (ix2 i j) = init + ∑ p : Fin c, ∑ q : Fin d, x (ix4 i j p q) := by
  unfold Ideal.hostReduceAdd
  refine congrArg (init + ·) ?_
  rw [← Finset.sum_product' (s := (Finset.univ : Finset (Fin c))) (t := (Finset.univ : Finset (Fin d)))
    (f := fun p q => x (ix4 i j p q))]
  have hmem : ∀ k : (⟨4, ![a, b, c, d]⟩ : Shape).Idx, h'.drop k = ix2 i j → k = ix4 i j (k 2) (k 3) := by
    intro k hk
    funext e
    match e with
    | ⟨0, _⟩ => exact Fin.ext (congrArg Fin.val (congrFun hk 0))
    | ⟨1, _⟩ => exact Fin.ext (congrArg Fin.val (congrFun hk 1))
    | ⟨2, _⟩ => rfl
    | ⟨3, _⟩ => rfl
  refine Finset.sum_bij' (fun k _ => ((k 2, k 3) : Fin c × Fin d)) (fun pq _ => ix4 i j pq.1 pq.2) ?_ ?_ ?_ ?_ ?_
  · intro k _; exact Finset.mem_product.mpr ⟨Finset.mem_univ _, Finset.mem_univ _⟩
  · intro pq _
    refine Finset.mem_filter.mpr ⟨Finset.mem_univ _, ?_⟩
    funext e
    match e with
    | ⟨0, _⟩ => rfl
    | ⟨1, _⟩ => rfl
  · intro k hk
    exact (hmem k (Finset.mem_filter.mp hk).2).symm
  · intro pq _; rfl
  · intro k hk
    exact congrArg x (hmem k (Finset.mem_filter.mp hk).2)

end Cert.LibTileSum
-- ==== Proof.RefBridge.lean ====
/-
  The reference's result is the same function of the arguments. jnp's reference takes the mean of every 64 x 64 tile
  as a sum from the zero word divided by 4096, runs the same squeeze/excite stage on it, and multiplies the input by
  the gate laid out as [32, 256, 1, 1] and copied along the two trailing axes. The stage is the kernel's `gate`
  word for word; the copy reads the gate at the index's row and channel, which is the kernel's channel-wise scaling;
  and the mean is the kernel's pooled array by the one law on the extended reals: a division by the real 4096 is the
  product with 1/4096, and the sum over a tile does not depend on how the tile's rows are grouped into blocks.
-/
import proofs.«149203_j36996848287772_2_alg».proof.Proof.Gen.ReferenceIdeal.Read
import proofs.«149203_j36996848287772_2_alg».proof.Proof.KernelValue
import proofs.«149203_j36996848287772_2_alg».proof.Proof.Mean
import proofs.«149203_j36996848287772_2_alg».proof.Proof.LibTileSum

set_option maxRecDepth 16384

noncomputable section

namespace Cert.ReferenceIdeal.Bridge

open Cert.ReferenceIdeal Cert.ReferenceIdeal.Gen Cert.ReferenceIdeal.Read
open Idealize.ShloMosaic Idealize.ShloMosaic.TcCoe Idealize.SL.Sem Idealize.ShloMosaic.ValueIdx

/-- The reference's mean of a tile is the kernel's pooled entry. -/
theorem mean_eq_pooled (x : (⟨S32x256x64x64, .f32⟩ : BufTy).Contents (Elt Ideal)) :
    val_main_v2 (F := Ideal) x = Cert.KernelIdeal.Pool.pooled x := by
  funext j
  obtain ⟨p, q, rfl⟩ : ∃ (p : Fin 32) (q : Fin 256), j = ix2 p q := ⟨j 0, j 1, eq_ix2 j⟩
  rw [val_main_v2_apply, val_main_v1_apply]
  show Ideal.div (Ideal.hostReduceAdd reducesTo_S32x256x64x64_S32x256_d2_3 x (Ideal.ofBits .f32 0x00000000#32) (ix2 p q))
    (Ideal.ofBits .f32 0x45800000#32) = _
  rw [Cert.LibTileSum.hostReduceAdd_tile]
  exact (Cert.Mean.times_recip_eq_div _).symm

/-- The reference's squeeze/excite stage is the kernel's, applied to the reference's mean. -/
theorem gate_stage (x0 : (⟨S32x256x64x64, .f32⟩ : BufTy).Contents (Elt Ideal)) (x1 : (⟨S16x256, .f32⟩ : BufTy).Contents (Elt Ideal))
    (x2 : (⟨S256x256, .f32⟩ : BufTy).Contents (Elt Ideal)) :
    val_main_v17 (F := Ideal) x0 x1 x2 = Cert.KernelIdeal.Gate.gate (F := Ideal) (val_main_v2 (F := Ideal) x0) x1 x2 := rfl

/-- The reference's result is the kernel's function of the arguments. -/
theorem result_eq (x0 : (⟨S32x256x64x64, .f32⟩ : BufTy).Contents (Elt Ideal)) (x1 : (⟨S16x256, .f32⟩ : BufTy).Contents (Elt Ideal))
    (x2 : (⟨S256x256, .f32⟩ : BufTy).Contents (Elt Ideal)) :
    val_main_v20 (F := Ideal) x0 x1 x2 = Cert.KernelIdeal.Whole.excite x0 x1 x2 := by
  funext i
  rw [val_main_v20_apply, val_main_v19_apply, val_main_v18_apply, gate_stage, mean_eq_pooled]
  refine congrArg (fun k => FloatOps.mulf (x0 i) (Cert.KernelIdeal.Gate.gate (F := Ideal) (Cert.KernelIdeal.Pool.pooled x0) x1 x2 k)) ?_
  funext a
  match a with
  | ⟨0, _⟩ => rfl
  | ⟨1, _⟩ => rfl

end Cert.ReferenceIdeal.Bridge

end
-- ==== Proof.lean ====
/-
  Squeeze-and-excitation of x : f32[32, 256, 64, 64] by two weight matrices, as two TensorCore kernels around a small
  host stage, against the plain jnp reference.

  The first kernel pools: for every row b and channel c it sums the 64 x 64 tile x(b, c, ·, ·), eight rows of the tile
  at a time into an accumulator that is reset at the first step and, at the last, multiplied by 1/4096 (an exact
  power of two). The host then computes the gate s = logistic((y ⊗ y) · W2ᵀ) with y = max(pooled · W1ᵀ, 0), and the
  second kernel multiplies every x(b, c, h, w) by s(b, c), block by block. The reference computes the mean of each tile
  as its sum divided by 4096, the same gate, and the same product with the gate copied along the tile.

  At the ideal values (floats read as extended reals, every operation exact) the two results are equal entry by entry:
  a sum does not depend on how its terms are grouped, and dividing by the real 4096 is multiplying by 1/4096 on every
  extended real, the infinities included — so no finiteness of the inputs is used. The idealization rewrote no
  operation, so the kernel's idealized text is the kernel's own; the three runs terminate without a fault and leave
  their arguments as launched.
-/
import proofs.«149203_j36996848287772_2_alg».proof.Defs
import proofs.«149203_j36996848287772_2_alg».proof.Proof.Gen.Kernel
import proofs.«149203_j36996848287772_2_alg».proof.Proof.Gen.Kernel.Skeleton
import proofs.«149203_j36996848287772_2_alg».proof.Proof.Gen.Kernel.Launch
import proofs.«149203_j36996848287772_2_alg».proof.Proof.Gen.Kernel.Points
import proofs.«149203_j36996848287772_2_alg».proof.Proof.Gen.Kernel.Frame
import proofs.«149203_j36996848287772_2_alg».proof.Proof.Gen.KernelIdeal
import proofs.«149203_j36996848287772_2_alg».proof.Proof.Gen.KernelIdeal.Skeleton
import proofs.«149203_j36996848287772_2_alg».proof.Proof.Gen.KernelIdeal.Launch
import proofs.«149203_j36996848287772_2_alg».proof.Proof.Gen.KernelIdeal.Points
import proofs.«149203_j36996848287772_2_alg».proof.Proof.Gen.KernelIdeal.Frame
import proofs.«149203_j36996848287772_2_alg».proof.Proof.Gen.ReferenceIdeal
import proofs.«149203_j36996848287772_2_alg».proof.Proof.Gen.ReferenceIdeal.Run
import proofs.«149203_j36996848287772_2_alg».proof.Proof.Gen.ReferenceIdeal.Read
import proofs.«149203_j36996848287772_2_alg».proof.Proof.Gen.Pre_finite_inputs
import proofs.«149203_j36996848287772_2_alg».proof.Proof.KernelValue
import proofs.«149203_j36996848287772_2_alg».proof.Proof.RefBridge
import Idealize.ShloMosaic.Adequacy
import Idealize.ShloMosaic.Init

noncomputable section

namespace Cert.Proof

open Idealize.ShloMosaic Idealize.SL.Sem

/-- The kernel as printed runs to the end without a fault and keeps its arguments. -/
theorem frame_kernel : Cert.frame_Kernel := fun m ρ _ => Cert.Kernel.Gen.frame m ρ

/-- So does its reading at the ideal values. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments both programs end with the result at the same function of the
    arguments: the kernel's by reading its two regions and the host stage between them, the reference's by the law
    that joins its mean to the kernel's pooled sums. -/
theorem algebraic : Cert.algebraic_KernelIdeal_ReferenceIdeal := by
  intro m ρ m' ρ' _ hagree
  refine ⟨fun c => Cert.KernelIdeal.Whole.excite
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Bridge.result_eq, (hagree c).1, (hagree c).2.1,
    (hagree c).2.2]

theorem claim : Cert.Claim := ⟨Cert.Kernel.Gen.facts, Cert.KernelIdeal.Gen.facts, Cert.ReferenceIdeal.Gen.facts,
  Cert.Pre_finite_inputs.Gen.facts, frame_kernel, frame_kernel_ideal, frame_reference_ideal, preserves, algebraic⟩

end Cert.Proof

end
